-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x4 : Shape := ⟨2, ![16, 4]⟩
abbrev S4 : Shape := ⟨1, ![4]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x4 : S_.BroadcastsInDim S16x4 (![] : Fin 0 → Fin S16x4.rank)
  reducesTo_S16x4_S_d0_1 : S16x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S4 .f32) (main_v13 : IVec S_ 1) (main_v16 : IVec S16x4 1) : IVec S_ 1 :=
  let main_c_5 : IVec S_ 1 := constantI S_ 1 1#1
  let main_v17 : IVec S_ 1 := (fun x v => Host.reduce IntOp.andi x v reducesTo_S16x4_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x4 .f32) (main_arg5 : FVec F S4 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x4 .f32 := Host.absf main_arg4
  let main_cst_4 : FVec F S_ .f32 := constant S_ .f32 0x7F800000#32
  let main_v15 : FVec F S16x4 .f32 := broadcastInDim S16x4 ![] bcast_S_S16x4 main_cst_4
  let main_v16 : IVec S16x4 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x4 : Shape := ⟨2, ![16, 4]⟩
abbrev S4 : Shape := ⟨1, ![4]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x512 : Shape := ⟨2, ![2000, 512]⟩
abbrev S2000x16 : Shape := ⟨2, ![2000, 16]⟩
abbrev S3300000x16 : Shape := ⟨2, ![3300000, 16]⟩
abbrev S1x16 : Shape := ⟨2, ![1, 16]⟩
abbrev S100000x4 : Shape := ⟨2, ![100000, 4]⟩
abbrev S2000x4 : Shape := ⟨2, ![2000, 4]⟩
abbrev S3300000x4 : Shape := ⟨2, ![3300000, 4]⟩
abbrev S1x4 : Shape := ⟨2, ![1, 4]⟩
abbrev S2000 : Shape := ⟨1, ![2000]⟩
abbrev S2000x1 : Shape := ⟨2, ![2000, 1]⟩

abbrev nBuf : Space → Nat
  | .hbm => 90
  | .vmem => 14
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x4, .f32⟩
  | .hbm, ⟨5, _⟩ => ⟨S4, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x4, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x4, .f32⟩
  | .hbm, ⟨79, _⟩ => ⟨S3300000x1, .f32⟩
  | .hbm, ⟨80, _⟩ => ⟨S3300000x4, .f32⟩
  | .hbm, ⟨81, _⟩ => ⟨S3300000x4, .f32⟩
  | .hbm, ⟨82, _⟩ => ⟨S_, .f32⟩
  | .hbm, ⟨83, _⟩ => ⟨S100000x4, .f32⟩
  | .hbm, ⟨84, _⟩ => ⟨S3300000x1, .i32⟩
  | .hbm, ⟨85, _⟩ => ⟨S100000x4, .f32⟩
  | .hbm, ⟨86, _⟩ => ⟨S1x4, .f32⟩
  | .hbm, ⟨87, _⟩ => ⟨S100000x4, .f32⟩
  | .hbm, ⟨88, _⟩ => ⟨S100000x4, .f32⟩
  | .hbm, ⟨89, _⟩ => ⟨S100000x4, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S16x4, .f32⟩
  | .local _ .vmem, ⟨8, _⟩ => ⟨S2000x4, .f32⟩
  | .local _ .vmem, ⟨9, _⟩ => ⟨S2000x4, .f32⟩
  | .local _ .vmem, ⟨10, _⟩ => ⟨S2000x4, .f32⟩
  | .local _ .vmem, ⟨11, _⟩ => ⟨S2000x4, .f32⟩
  | .local _ .vmem, ⟨12, _⟩ => ⟨S2000x4, .f32⟩
  | .local _ .vmem, ⟨13, _⟩ => ⟨S2000x4, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x4 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S2000x16_S2000x16 : S2000x16.ShapeCasts S2000x16
  inb_S16x4_S16x4_0_0 : ∀ a, (![0, 0] : Fin 2 → Nat) a + S16x4.size a ≤ S16x4.size a
  h_S16x4 : 0 < S16x4.numel
  inb_S2000x4_S2000x4_0_0 : ∀ a, (![0, 0] : Fin 2 → Nat) a + S2000x4.size a ≤ S2000x4.size a
  h_S2000x4 : 0 < S2000x4.numel
  bcast_S3300000x1_S3300000x4_0_1 : S3300000x1.BroadcastsInDim S3300000x4 (![0, 1] : Fin 2 → Fin S3300000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  shapeCasts_S2000x4_S2000x4 : S2000x4.ShapeCasts S2000x4
  reduces_S2000x4_S2000 : S2000x4.Reduces [1] S2000
  shapeCasts_S2000_S2000x1 : S2000.ShapeCasts S2000x1
  broadcasts_S2000x1_S2000x4 : S2000x1.Broadcasts S2000x4
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x512_S512x16_S2000x16_1_0_0_1_n_n_wf : DotDims.WF S2000x512 S512x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x4_S2000x4_1_0_0_1_n_n_wf : DotDims.WF S2000x16 S16x4 S2000x4 [1] [0] [0] [1] [] []
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x4.size a ≤ S16x4.size a
  hwx1_1 : ∀ i : grid1.Coords, EltTy.bits .f32 = 32 ∨ (Rect.block (s := S16x4) S16x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x4.size a ≤ S100000x4.size a
  hwx1_2 : ∀ i : grid1.Coords, EltTy.bits .f32 = 32 ∨ (Rect.block (s := S100000x4) S2000x4.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x4.size a ≤ S100000x4.size a
  hwx2_0 : ∀ i : grid2.Coords, EltTy.bits .f32 = 32 ∨ (Rect.block (s := S100000x4) S2000x4.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x4.size a ≤ S100000x4.size a
  hwx2_1 : ∀ i : grid2.Coords, EltTy.bits .f32 = 32 ∨ (Rect.block (s := S100000x4) S2000x4.size (cc2_transform_1 i) (hinb2_1 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x4_S2000x4_1_0_0_1_n_n : DotDims S2000x16 S16x4 S2000x4 where
  lhsContracting := [1]
  rhsContracting := [0]
  lhsNonContracting := [0]
  rhsNonContracting := [1]
  lhsBatch := []
  rhsBatch := []
  wf := dot_S2000x16_S16x4_S2000x4_1_0_0_1_n_n_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x4.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x4.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v64) S2000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S2000x4.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x4 : Shape := ⟨2, ![16, 4]⟩
abbrev S4 : Shape := ⟨1, ![4]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x4 : Shape := ⟨2, ![100000, 4]⟩
abbrev S3300000x4 : Shape := ⟨2, ![3300000, 4]⟩
abbrev S1x4 : Shape := ⟨2, ![1, 4]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x4, .f32⟩
  | .hbm, ⟨5, _⟩ => ⟨S4, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x4, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x4, .f32⟩
  | .hbm, ⟨79, _⟩ => ⟨S3300000x1, .f32⟩
  | .hbm, ⟨80, _⟩ => ⟨S3300000x4, .f32⟩
  | .hbm, ⟨81, _⟩ => ⟨S3300000x4, .f32⟩
  | .hbm, ⟨82, _⟩ => ⟨S_, .f32⟩
  | .hbm, ⟨83, _⟩ => ⟨S100000x4, .f32⟩
  | .hbm, ⟨84, _⟩ => ⟨S3300000x1, .i32⟩
  | .hbm, ⟨85, _⟩ => ⟨S100000x4, .f32⟩
  | .hbm, ⟨86, _⟩ => ⟨S1x4, .f32⟩
  | .hbm, ⟨87, _⟩ => ⟨S100000x4, .f32⟩
  | .hbm, ⟨88, _⟩ => ⟨S100000x4, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x4, .f32⟩
  | .hbm, ⟨96, _⟩ => ⟨S100000x4, .f32⟩
  | .hbm, ⟨97, _⟩ => ⟨S100000x4, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x4, .f32⟩
  | .hbm, ⟨103, _⟩ => ⟨S100000x4, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x4_0_1 : S3300000x1.BroadcastsInDim S3300000x4 (![0, 1] : Fin 2 → Fin S3300000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  reducesTo_S100000x4_S100000_d1 : S100000x4.ReducesTo [1] S100000
  h_S_ : 0 < S_.numel
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x4_S100000x4_1_0_0_1_n_n_wf : DotDims.WF S100000x16 S16x4 S100000x4 [1] [0] [0] [1] [] []
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x4_S100000x4_1_0_0_1_n_n : DotDims S100000x16 S16x4 S100000x4 where
  lhsContracting := [1]
  rhsContracting := [0]
  lhsNonContracting := [0]
  rhsNonContracting := [1]
  lhsBatch := []
  rhsBatch := []
  wf := dot_S100000x16_S16x4_S100000x4_1_0_0_1_n_n_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf

class Facts : Prop extends Facts₀ where

variable [Facts]
-- ==== Proof.KRun.lean ====
/-
  The whole program's run with its result named.

  The program is three kernel launches among stretches of host operations. Its run through all of them ends with
  every unscoped buffer of a core at the contents the last boundary of the run assigns it; read at the result
  buffer this names the result — what the third launch's write-backs leave in its output array — and read at the
  six argument buffers it gives them back as launched.
-/
import proofs.«179703_j40638980555308_2_alg».proof.Proof.Gen.KernelIdeal.Frame

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched. -/
theorem run_result : θ_run defs (onTc (τ := τ) (main (F := F))) ⟨m, fun _ => 0, ρ⟩ (fun r => ∀ c : Dev nD,
      r.2.mem ((c.tc : Thread nD τ).loc main_v65) = W9 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v65 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Whole

end
-- ==== Proof.LibTRef.lean ====
/-
  A typed reference's two transports cancel.

  A typed reference to a host buffer carries the equation between the buffer's recorded type and the value's type; an
  operation stated over typed references carries contents of the value's type into the buffer's type on the way in and back
  on the way out. Carrying a value in and straight back out is the identity, whatever the equation's proof.
-/
import Idealize.ShloMosaic.Lib.StableHlo

namespace Cert.LibTRef

open Idealize.ShloMosaic Idealize.ShloMosaic.StableHlo

/-- Contents carried into a typed reference's buffer type and back out are the contents. -/
theorem ofBuf_toBuf {sig : RefSig} {T : BufTy} {Val : EltTy → Type} (x : TRef sig T) (v : T.Contents Val) :
    x.ofBuf (x.toBuf v) = v := by
  obtain ⟨r, rfl, _, _⟩ := x
  rfl

end Cert.LibTRef
-- ==== Proof.KStagesA.lean ====
/-
  The kernel program's host operations before its first launch, read in stages.

  Before the first launch the program computes, on the host, the two edge lists with their self loops and the per-edge
  weights — the same operations, in the same order, as the reference's first forty. Each buffer a later stretch reads
  is found here at the reference's named stage of the operation-by-operation reading, applied to the kernel program's own
  arguments; the six argument buffers are found as launched.
-/
import proofs.«179703_j40638980555308_2_alg».proof.Proof.Gen.KernelIdeal.Frame
import proofs.«179703_j40638980555308_2_alg».proof.Proof.RefReadP
import proofs.«179703_j40638980555308_2_alg».proof.Proof.LibTRef
import Idealize.ShloMosaic.Lib.StableHlo.Run

set_option maxHeartbeats 16000000
set_option maxRecDepth 16384

noncomputable section

namespace Cert.KernelIdeal.Stages

open Cert.KernelIdeal Cert.KernelIdeal.Gen
open Cert.ReferenceIdeal.ReadP (val_main_v3 val_main_v6 val_main_v12 val_main_v13 val_main_cst_2 val_main_v14 val_main_v29 val_main_v30 val_main_v47 val_main_v48 val_main_v64 val_main_v65)
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first eighteen operations: the edge lists, the degrees' comparison and inverse roots -/

theorem W1_v3 : W1 m ρ c (Proc.devRef .tc main_v3) = val_main_v3 (F := Ideal) (m ((c.tc : Thread nD τ).loc main_arg1)) := by
  dsimp only [W1, hostOps0]
  after_results
  all_goals rfl
theorem W1_v6 : W1 m ρ c (Proc.devRef .tc main_v6) = val_main_v6 (F := Ideal) (m ((c.tc : Thread nD τ).loc main_arg1)) := by
  dsimp only [W1, hostOps0]
  after_results
  all_goals rfl
theorem W1_v12 : W1 m ρ c (Proc.devRef .tc main_v12) = val_main_v12 (F := Ideal) (m ((c.tc : Thread nD τ).loc main_arg1)) := by
  dsimp only [W1, hostOps0]
  after_results
  all_goals rfl
theorem W1_v13 : W1 m ρ c (Proc.devRef .tc main_v13) = val_main_v13 (F := Ideal) (m ((c.tc : Thread nD τ).loc main_arg1)) := by
  dsimp only [W1, hostOps0]
  after_results
  all_goals rfl
theorem W1_cst_2 : W1 m ρ c (Proc.devRef .tc main_cst_2) = val_main_cst_2 (F := Ideal) := by
  dsimp only [W1, hostOps0]
  after_results
  all_goals rfl

/-! ## After the select that zeroes the isolated nodes -/

theorem W2_v3 : W2 m ρ c (Proc.devRef .tc main_v3) = val_main_v3 (F := Ideal) (m ((c.tc : Thread nD τ).loc main_arg1)) := by
  have h := W1_v3 m ρ c
  dsimp only [W2, hostOps0_1]
  generalize W1 m ρ c = W at h ⊢
  after_results
  exact h
theorem W2_v6 : W2 m ρ c (Proc.devRef .tc main_v6) = val_main_v6 (F := Ideal) (m ((c.tc : Thread nD τ).loc main_arg1)) := by
  have h := W1_v6 m ρ c
  dsimp only [W2, hostOps0_1]
  generalize W1 m ρ c = W at h ⊢
  after_results
  exact h

/-- The three operations of the select, from any contents: the comparison chooses between the inverse roots and the
    broadcast zero. -/
theorem where_result (W : Valuation τ sig (Elt Ideal)) :
    after hostOps0_1 W (Proc.devRef .tc main_v14)
      = select (W (Proc.devRef .tc main_v12) : IVec S100000 1) (W (Proc.devRef .tc main_v13) : FVec Ideal S100000 .f32)
          (broadcastInDim S100000 ![] bcast_S_S100000 (W (Proc.devRef .tc main_cst_2) : FVec Ideal S_ .f32)) := by
  dsimp only [hostOps0_1]
  after_results
  simp only [Cert.LibTRef.ofBuf_toBuf]
  rfl

theorem W2_v14 : W2 m ρ c (Proc.devRef .tc main_v14) = val_main_v14 (F := Ideal) (m ((c.tc : Thread nD τ).loc main_arg1)) := by
  have h12 := W1_v12 m ρ c
  have h13 := W1_v13 m ρ c
  have hc := W1_cst_2 m ρ c
  dsimp only [W2]
  rw [where_result, h12, h13, hc]
  rfl
theorem W2_arg0 : W2 m ρ c (Proc.devRef .tc main_arg0) = m ((c.tc : Thread nD τ).loc main_arg0) := by
  dsimp only [W2, W1, hostOps0_1, hostOps0]
  after_results
  all_goals rfl
theorem W2_arg2 : W2 m ρ c (Proc.devRef .tc main_arg2) = m ((c.tc : Thread nD τ).loc main_arg2) := by
  dsimp only [W2, W1, hostOps0_1, hostOps0]
  after_results
  all_goals rfl
theorem W2_arg3 : W2 m ρ c (Proc.devRef .tc main_arg3) = m ((c.tc : Thread nD τ).loc main_arg3) := by
  dsimp only [W2, W1, hostOps0_1, hostOps0]
  after_results
  all_goals rfl
theorem W2_arg4 : W2 m ρ c (Proc.devRef .tc main_arg4) = m ((c.tc : Thread nD τ).loc main_arg4) := by
  dsimp only [W2, W1, hostOps0_1, hostOps0]
  after_results
  all_goals rfl
theorem W2_arg5 : W2 m ρ c (Proc.devRef .tc main_arg5) = m ((c.tc : Thread nD τ).loc main_arg5) := by
  dsimp only [W2, W1, hostOps0_1, hostOps0]
  after_results
  all_goals rfl

/-! ## After the forty operations before the first launch -/

theorem W3_v3 : W3 m ρ c (Proc.devRef .tc main_v3) = val_main_v3 (F := Ideal) (m ((c.tc : Thread nD τ).loc main_arg1)) := by
  have h := W2_v3 m ρ c
  dsimp only [W3, hostOps0_2]
  generalize W2 m ρ c = W at h ⊢
  after_results
  exact h
theorem W3_v6 : W3 m ρ c (Proc.devRef .tc main_v6) = val_main_v6 (F := Ideal) (m ((c.tc : Thread nD τ).loc main_arg1)) := by
  have h := W2_v6 m ρ c
  dsimp only [W3, hostOps0_2]
  generalize W2 m ρ c = W at h ⊢
  after_results
  exact h
theorem W3_arg0 : W3 m ρ c (Proc.devRef .tc main_arg0) = m ((c.tc : Thread nD τ).loc main_arg0) := by
  have h := W2_arg0 m ρ c
  dsimp only [W3, hostOps0_2]
  generalize W2 m ρ c = W at h ⊢
  after_results
  exact h
theorem W3_arg2 : W3 m ρ c (Proc.devRef .tc main_arg2) = m ((c.tc : Thread nD τ).loc main_arg2) := by
  have h := W2_arg2 m ρ c
  dsimp only [W3, hostOps0_2]
  generalize W2 m ρ c = W at h ⊢
  after_results
  exact h
theorem W3_arg3 : W3 m ρ c (Proc.devRef .tc main_arg3) = m ((c.tc : Thread nD τ).loc main_arg3) := by
  have h := W2_arg3 m ρ c
  dsimp only [W3, hostOps0_2]
  generalize W2 m ρ c = W at h ⊢
  after_results
  exact h
theorem W3_arg4 : W3 m ρ c (Proc.devRef .tc main_arg4) = m ((c.tc : Thread nD τ).loc main_arg4) := by
  have h := W2_arg4 m ρ c
  dsimp only [W3, hostOps0_2]
  generalize W2 m ρ c = W at h ⊢
  after_results
  exact h
theorem W3_arg5 : W3 m ρ c (Proc.devRef .tc main_arg5) = m ((c.tc : Thread nD τ).loc main_arg5) := by
  have h := W2_arg5 m ρ c
  dsimp only [W3, hostOps0_2]
  generalize W2 m ρ c = W at h ⊢
  after_results
  exact h

theorem W3_v29 : W3 m ρ c (Proc.devRef .tc main_v29) = val_main_v29 (F := Ideal) (m ((c.tc : Thread nD τ).loc main_arg1)) := by
  have h3 := W2_v3 m ρ c
  have h6 := W2_v6 m ρ c
  have h14 := W2_v14 m ρ c
  dsimp only [W3, hostOps0_2]
  generalize W2 m ρ c = W at h3 h6 h14 ⊢
  after_results
  rw [h3, h6, h14]
  rfl

end Cert.KernelIdeal.Stages

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.KMat.lean ====
/-
  The two matrix-product launches, each read as one whole-array function of the arrays it finds.

  Each launch walks fifty grid points; at point t it loads rows 2000·t … 2000·t + 1999 of the left operand and the whole
  right operand, multiplies them on the matrix unit after rounding both to bf16, and writes the block back to the same rows
  of the output. On the extended reals the rounding is the identity and the block product's entry (p, q) is the sum over k of
  l (2000·t + p, k) · r (k, q) — exactly the entry (2000·t + p, q) of the host's product of the two whole arrays. The fifty
  blocks tile the output, so the output array ends holding that whole product.
-/
import proofs.«179703_j40638980555308_2_alg».proof.Proof.Gen.KernelIdeal.Frame
import proofs.«179703_j40638980555308_2_alg».proof.Proof.Gen.ReferenceIdeal
import proofs.«179703_j40638980555308_2_alg».proof.Proof.LibDot
import Idealize.ShloMosaic.Lib.Pipeline.Value
import Idealize.ShloMosaic.Lib.ValueIdx
import Idealize.ShloMosaic.PureOps.Ideal.Laws

noncomputable section

namespace Cert.KernelIdeal.Mat

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Launch 0: a 100000 × 512 by 512 × 16 product, 2000 rows to a grid point -/

/-- The whole product this launch leaves: the host's product of the two whole operands. -/
def prod0 (l : S100000x512.Idx → Elt Ideal .f32) (r : S512x16.Idx → Elt Ideal .f32) : S100000x16.Idx → Elt Ideal .f32 :=
  Host.dotGeneral (F := Ideal) (φ₁ := .f32) (φ₂ := .f32) Cert.ReferenceIdeal.dot_S100000x512_S512x16_S100000x16_1_0_0_1_n_n none l r

/-- Entry (p, q) of the body's block product is the sum over k of the row block's (p, k) times the right operand's (k, q):
    rounding the operands to bf16 changes nothing on the extended reals, and the accumulator starts at zero. -/
theorem pay0_apply (x0 : Vec Ideal S2000x512 .f32) (x1 : Vec Ideal S512x16 .f32) (p : Fin 2000) (q : Fin 16) :
    k0_pay1 x0 x1 (ix2 p q) = ∑ k : Fin 512, x0 (ix2 p k) * x1 (ix2 k q) := by
  unfold k0_pay1
  exact Cert.LibDot.matmul_zero_plain_apply dot_S2000x512_S512x16_S2000x16_1_0_0_1_n_n rfl rfl rfl rfl rfl rfl none _ _ (ix2 p q)

/-- Where the windows' blocks sit at grid point t: the left operand's and the output's at row block t, the right
    operand's at the origin. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 2000·t … 2000·t + 1999 of its array. -/
theorem iblk0_0_apply (c : Dev nD) (t : Fin cfg0.N) (x : S2000x512.Idx) (k : S100000x512.Idx)
    (hk0 : (k 0).val = t.val * 2000 + (x 0).val) (hk1 : (k 1).val = (x 1).val) :
    (iblk0 V c 0 t : Vec Ideal S2000x512 .f32) x = (V c main_arg0 : S100000x512.Idx → Elt Ideal .f32) k := by
  obtain ⟨e0, e1, -, -, -, -⟩ := idx0 t
  unfold iblk0
  rw [View.read_apply]
  show V c main_arg0 _ = V c main_arg0 _
  refine congrArg (V c main_arg0) ?_
  funext a
  apply Fin.ext
  match a with
  | ⟨0, _⟩ => show win0_0.index t (0 : Fin 2) * 2000 + 1 * (x 0).val = (k 0).val; rw [e0, hk0]; omega
  | ⟨1, _⟩ => show win0_0.index t (1 : Fin 2) * 512 + 1 * (x 1).val = (k 1).val; rw [e1, hk1]; omega

/-- The right operand's block at every point is its whole array. -/
theorem iblk0_1_apply (c : Dev nD) (t : Fin cfg0.N) (x : S512x16.Idx) (k : S512x16.Idx)
    (hk0 : (k 0).val = (x 0).val) (hk1 : (k 1).val = (x 1).val) :
    (iblk0 V c 1 t : Vec Ideal S512x16 .f32) x = (V c main_arg2 : S512x16.Idx → Elt Ideal .f32) k := by
  obtain ⟨-, -, e2, e3, -, -⟩ := idx0 t
  unfold iblk0
  rw [View.read_apply]
  show V c main_arg2 _ = V c main_arg2 _
  refine congrArg (V c main_arg2) ?_
  funext a
  apply Fin.ext
  match a with
  | ⟨0, _⟩ => show win0_1.index t (0 : Fin 2) * 512 + 1 * (x 0).val = (k 0).val; rw [e2, hk0]; omega
  | ⟨1, _⟩ => show win0_1.index t (1 : Fin 2) * 16 + 1 * (x 1).val = (k 1).val; rw [e3, hk1]; omega

/-- What point t writes back is block t of the whole product: row 2000·t + p of the product only reads row 2000·t + p
    of the left operand, which is row p of the point's block. -/
theorem flushed0 (c : Dev nD) (t : Fin cfg0.N) :
    (dat0 V c).flushed 2 t = ((cfg0.win 2).blk t).view.read (Elt Ideal) (prod0 (V c main_arg0) (V c main_arg2)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x16) hz]
  obtain ⟨-, -, -, -, e4, e5⟩ := idx0 t
  funext y
  obtain ⟨p, q, rfl⟩ : ∃ (p : Fin 2000) (q : Fin 16), y = ix2 p q := ⟨y 0, y 1, eq_ix2 y⟩
  refine (pay0_apply (iblk0 V c 0 t) (iblk0 V c 1 t) p q).trans ?_
  rw [View.read_apply]
  unfold prod0
  refine Eq.trans ?_ (Cert.LibDot.dotGeneral_plain_apply Cert.ReferenceIdeal.dot_S100000x512_S512x16_S100000x16_1_0_0_1_n_n rfl rfl rfl rfl rfl rfl none .single
    (V c main_arg0) (V c main_arg2) (((cfg0.win 2).blk t).view.emb (ix2 p q))).symm
  refine Finset.sum_congr rfl fun k _ => ?_
  refine congrArg₂ (· * ·) (iblk0_0_apply V c t (ix2 p k) _ ?_ rfl) (iblk0_1_apply V c t (ix2 k q) _ rfl ?_)
  · show win0_2.index t (0 : Fin 2) * 2000 + 1 * p.val = t.val * 2000 + p.val
    rw [e4]; omega
  · show win0_2.index t (1 : Fin 2) * 16 + 1 * q.val = q.val
    rw [e5]; omega

/-- An index of the output array is in point t's block iff each coordinate is in the block's range on its axis. -/
theorem mem_blk0 (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v30).slice (win0_2.rect t)).set ↔ _
  rw [View.set_slice_whole, Rect.mem_set_unit]
  exact Iff.rfl

/-- Row r of the output lies in the block of point r / 2000: the fifty blocks tile the array. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have ht : (i 0).val / 2000 < cfg0.N := by show _ < grid0.N; rw [N_0]; omega
  obtain ⟨-, -, -, -, e4, e5⟩ := idx0 ⟨(i 0).val / 2000, ht⟩
  have e4' : win0_2.index ⟨(i 0).val / 2000, ht⟩ (0 : Fin 2) = (i 0).val / 2000 := e4
  refine ⟨⟨(i 0).val / 2000, ht⟩, flush0_2 _, ?_⟩
  rw [mem_blk0]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4']; omega
  | ⟨1, _⟩ =>
    show win0_2.index ⟨(i 0).val / 2000, ht⟩ (1 : Fin 2) * 16 ≤ (i 1).val ∧ (i 1).val < win0_2.index ⟨(i 0).val / 2000, ht⟩ (1 : Fin 2) * 16 + 16
    rw [e5]; omega

/-- After the launch its output array holds the whole product of its two operand arrays as the launch found them. -/
theorem arr0 (c : Dev nD) : (dat0 V c).arrAt 2 cfg0.N = prod0 (V c main_arg0) (V c main_arg2) :=
  (dat0 V c).arrAt_eq_of_cover 2 (prod0 (V c main_arg0) (V c main_arg2)) (fun t _ => flushed0 V c t) cover0

/-! ## Launch 1: a 100000 × 16 by 16 × 4 product, 2000 rows to a grid point -/

/-- The whole product this launch leaves: the host's product of the two whole operands. -/
def prod1 (l : S100000x16.Idx → Elt Ideal .f32) (r : S16x4.Idx → Elt Ideal .f32) : S100000x4.Idx → Elt Ideal .f32 :=
  Host.dotGeneral (F := Ideal) (φ₁ := .f32) (φ₂ := .f32) Cert.ReferenceIdeal.dot_S100000x16_S16x4_S100000x4_1_0_0_1_n_n none l r

/-- Entry (p, q) of the body's block product is the sum over k of the row block's (p, k) times the right operand's (k, q):
    rounding the operands to bf16 changes nothing on the extended reals, and the accumulator starts at zero. -/
theorem pay1_apply (x0 : Vec Ideal S2000x16 .f32) (x1 : Vec Ideal S16x4 .f32) (p : Fin 2000) (q : Fin 4) :
    k1_pay1 x0 x1 (ix2 p q) = ∑ k : Fin 16, x0 (ix2 p k) * x1 (ix2 k q) := by
  unfold k1_pay1
  simp only [shapeCast_self]
  exact Cert.LibDot.matmul_zero_plain_apply dot_S2000x16_S16x4_S2000x4_1_0_0_1_n_n rfl rfl rfl rfl rfl rfl none _ _ (ix2 p q)

/-- Where the windows' blocks sit at grid point t: the left operand's and the output's at row block t, the right
    operand's at the origin. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t is rows 2000·t … 2000·t + 1999 of its array. -/
theorem iblk1_0_apply (c : Dev nD) (t : Fin cfg1.N) (x : S2000x16.Idx) (k : S100000x16.Idx)
    (hk0 : (k 0).val = t.val * 2000 + (x 0).val) (hk1 : (k 1).val = (x 1).val) :
    (iblk1 V c 0 t : Vec Ideal S2000x16 .f32) x = (V c main_v47 : S100000x16.Idx → Elt Ideal .f32) k := by
  obtain ⟨e0, e1, -, -, -, -⟩ := idx1 t
  unfold iblk1
  rw [View.read_apply]
  show V c main_v47 _ = V c main_v47 _
  refine congrArg (V c main_v47) ?_
  funext a
  apply Fin.ext
  match a with
  | ⟨0, _⟩ => show win1_0.index t (0 : Fin 2) * 2000 + 1 * (x 0).val = (k 0).val; rw [e0, hk0]; omega
  | ⟨1, _⟩ => show win1_0.index t (1 : Fin 2) * 16 + 1 * (x 1).val = (k 1).val; rw [e1, hk1]; omega

/-- The right operand's block at every point is its whole array. -/
theorem iblk1_1_apply (c : Dev nD) (t : Fin cfg1.N) (x : S16x4.Idx) (k : S16x4.Idx)
    (hk0 : (k 0).val = (x 0).val) (hk1 : (k 1).val = (x 1).val) :
    (iblk1 V c 1 t : Vec Ideal S16x4 .f32) x = (V c main_arg4 : S16x4.Idx → Elt Ideal .f32) k := by
  obtain ⟨-, -, e2, e3, -, -⟩ := idx1 t
  unfold iblk1
  rw [View.read_apply]
  show V c main_arg4 _ = V c main_arg4 _
  refine congrArg (V c main_arg4) ?_
  funext a
  apply Fin.ext
  match a with
  | ⟨0, _⟩ => show win1_1.index t (0 : Fin 2) * 16 + 1 * (x 0).val = (k 0).val; rw [e2, hk0]; omega
  | ⟨1, _⟩ => show win1_1.index t (1 : Fin 2) * 4 + 1 * (x 1).val = (k 1).val; rw [e3, hk1]; omega

/-- What point t writes back is block t of the whole product: row 2000·t + p of the product only reads row 2000·t + p
    of the left operand, which is row p of the point's block. -/
theorem flushed1 (c : Dev nD) (t : Fin cfg1.N) :
    (dat1 V c).flushed 2 t = ((cfg1.win 2).blk t).view.read (Elt Ideal) (prod1 (V c main_v47) (V c main_arg4)) := by
  show (cfg1.win 2).cut (grid1.coords t) ((dat1 V c).after 2 t) = _
  rw [after1_2]
  unfold out1_2
  rw [View.canon_unit_zero hz]
  simp only [View.ld_unit_zero (S := S2000x16) hz, View.ld_unit_zero (S := S16x4) hz]
  obtain ⟨-, -, -, -, e4, e5⟩ := idx1 t
  funext y
  obtain ⟨p, q, rfl⟩ : ∃ (p : Fin 2000) (q : Fin 4), y = ix2 p q := ⟨y 0, y 1, eq_ix2 y⟩
  refine (pay1_apply (iblk1 V c 0 t) (iblk1 V c 1 t) p q).trans ?_
  rw [View.read_apply]
  unfold prod1
  refine Eq.trans ?_ (Cert.LibDot.dotGeneral_plain_apply Cert.ReferenceIdeal.dot_S100000x16_S16x4_S100000x4_1_0_0_1_n_n rfl rfl rfl rfl rfl rfl none .single
    (V c main_v47) (V c main_arg4) (((cfg1.win 2).blk t).view.emb (ix2 p q))).symm
  refine Finset.sum_congr rfl fun k _ => ?_
  refine congrArg₂ (· * ·) (iblk1_0_apply V c t (ix2 p k) _ ?_ rfl) (iblk1_1_apply V c t (ix2 k q) _ rfl ?_)
  · show win1_2.index t (0 : Fin 2) * 2000 + 1 * p.val = t.val * 2000 + p.val
    rw [e4]; omega
  · show win1_2.index t (1 : Fin 2) * 4 + 1 * q.val = q.val
    rw [e5]; omega

/-- An index of the output array is in point t's block iff each coordinate is in the block's range on its axis. -/
theorem mem_blk1 (t : Fin cfg1.N) (i : S100000x4.Idx) :
    i ∈ ((cfg1.win 2).blk t).view.set ↔ ∀ a : Fin 2, win1_2.index t a * S2000x4.size a ≤ (i a).val ∧ (i a).val < win1_2.index t a * S2000x4.size a + S2000x4.size a := by
  show i ∈ ((View.whole main_v48).slice (win1_2.rect t)).set ↔ _
  rw [View.set_slice_whole, Rect.mem_set_unit]
  exact Iff.rfl

/-- Row r of the output lies in the block of point r / 2000: the fifty blocks tile the array. -/
theorem cover1 (i : S100000x4.Idx) :
    ∃ t : Fin cfg1.N, (cfg1.win 2).flush t = true ∧ i ∈ ((cfg1.win 2).blk t).view.set := by
  have hi0 : (i 0).val < 100000 := (i 0).isLt
  have hi1 : (i 1).val < 4 := (i 1).isLt
  have ht : (i 0).val / 2000 < cfg1.N := by show _ < grid1.N; rw [N_1]; omega
  obtain ⟨-, -, -, -, e4, e5⟩ := idx1 ⟨(i 0).val / 2000, ht⟩
  have e4' : win1_2.index ⟨(i 0).val / 2000, ht⟩ (0 : Fin 2) = (i 0).val / 2000 := e4
  refine ⟨⟨(i 0).val / 2000, ht⟩, flush1_2 _, ?_⟩
  rw [mem_blk1]
  intro a
  match a with
  | ⟨0, _⟩ =>
    show win1_2.index ⟨(i 0).val / 2000, ht⟩ (0 : Fin 2) * 2000 ≤ (i 0).val ∧ (i 0).val < win1_2.index ⟨(i 0).val / 2000, ht⟩ (0 : Fin 2) * 2000 + 2000
    rw [e4']; omega
  | ⟨1, _⟩ =>
    show win1_2.index ⟨(i 0).val / 2000, ht⟩ (1 : Fin 2) * 4 ≤ (i 1).val ∧ (i 1).val < win1_2.index ⟨(i 0).val / 2000, ht⟩ (1 : Fin 2) * 4 + 4
    rw [e5]; omega

/-- After the launch its output array holds the whole product of its two operand arrays as the launch found them. -/
theorem arr1 (c : Dev nD) : (dat1 V c).arrAt 2 cfg1.N = prod1 (V c main_v47) (V c main_arg4) :=
  (dat1 V c).arrAt_eq_of_cover 2 (prod1 (V c main_v47) (V c main_arg4)) (fun t _ => flushed1 V c t) cover1

end Cert.KernelIdeal.Mat

end
-- ==== Proof.LsmSpec.lean ====
/-
  Row-wise log-softmax of a matrix with four columns, on the extended reals.

  For a row r, its maximum is the fold of max over the four entries from the float word of −∞; entry (r, j) of the
  result is (x (r, j) − max_r) − log (∑ j', exp (x (r, j') − max_r)). Each row of the result depends only on the same row
  of the argument.
-/
import Idealize.ShloMosaic.PureOps.Ideal
import Idealize.ShloMosaic.Lib.ValueIdx

noncomputable section

namespace Cert.LsmSpec

open Idealize.ShloMosaic Idealize.ShloMosaic.ValueIdx

variable {n : Nat}

/-- The maximum of row r: the fold of max over its four entries, starting from the float word of −∞. -/
def rowMax (x : (⟨2, ![n, 4]⟩ : Shape).Idx → EReal) (r : Fin n) : EReal :=
  (Finset.univ : Finset (Fin 4)).fold max (Ideal.ofBits .f32 0xFF800000#32) fun j => x (ix2 r j)

/-- Row-wise log-softmax: each entry less its row's maximum, less the logarithm of the row's sum of exponentials of the
    entries less the maximum. -/
def lsm (x : (⟨2, ![n, 4]⟩ : Shape).Idx → EReal) : (⟨2, ![n, 4]⟩ : Shape).Idx → EReal := fun i =>
  (x i - rowMax x (i 0)) - Ideal.log (∑ j : Fin 4, Ideal.exp (x (ix2 (i 0) j) - rowMax x (i 0)))

/-- The float word of −∞ is the bottom of the extended reals. -/
theorem neg_inf : Ideal.ofBits .f32 0xFF800000#32 = (⊥ : EReal) := by simp [Ideal.ofBits, Ideal.ieee]

/-- Taking the maximum with −∞ once more changes nothing. -/
theorem max_neg_inf (y : EReal) : max (Ideal.ofBits .f32 0xFF800000#32) y = y := by
  rw [neg_inf]; exact max_eq_right bot_le

/-- A row's maximum only reads that row: two matrices that agree on row r of one and row r' of the other have the same
    maximum there. -/
theorem rowMax_congr {n' : Nat} (x : (⟨2, ![n, 4]⟩ : Shape).Idx → EReal) (x' : (⟨2, ![n', 4]⟩ : Shape).Idx → EReal)
    (r : Fin n) (r' : Fin n') (h : ∀ j : Fin 4, x (ix2 r j) = x' (ix2 r' j)) : rowMax x r = rowMax x' r' := by
  unfold rowMax
  rw [show (fun j => x (ix2 r j)) = fun j => x' (ix2 r' j) from funext h]

/-- Likewise the log-softmax at (r, q) only reads row r. -/
theorem lsm_congr {n' : Nat} (x : (⟨2, ![n, 4]⟩ : Shape).Idx → EReal) (x' : (⟨2, ![n', 4]⟩ : Shape).Idx → EReal)
    (r : Fin n) (r' : Fin n') (q : Fin 4) (h : ∀ j : Fin 4, x (ix2 r j) = x' (ix2 r' j)) :
    lsm x (ix2 r q) = lsm x' (ix2 r' q) := by
  unfold lsm
  show (x (ix2 r q) - rowMax x r) - Ideal.log (∑ j : Fin 4, Ideal.exp (x (ix2 r j) - rowMax x r))
    = (x' (ix2 r' q) - rowMax x' r') - Ideal.log (∑ j : Fin 4, Ideal.exp (x' (ix2 r' j) - rowMax x' r'))
  rw [rowMax_congr x x' r r' h, h q]
  exact congrArg (fun s => (x' (ix2 r' q) - rowMax x' r') - Ideal.log s)
    (Finset.sum_congr rfl fun j _ => by rw [h j])

end Cert.LsmSpec

end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.KLsm.lean ====
/-
  The third launch: a row-wise log-softmax over 2000-row blocks, read as one whole-array function of the array it finds.

  At grid point t the body loads rows 2000·t … 2000·t + 1999 of a 100000 × 4 array; per row it takes the lane maximum,
  subtracts it, exponentiates, sums the four lanes, takes the logarithm and subtracts again; it writes the block to the
  same rows of the output. Every row of the result only reads the same row of the argument, so the block the point writes
  is rows 2000·t … of the row-wise log-softmax of the WHOLE array, and the fifty blocks tile the output.
-/
import proofs.«179703_j40638980555308_2_alg».proof.Proof.Gen.KernelIdeal.Frame
import proofs.«179703_j40638980555308_2_alg».proof.Proof.LsmSpec
import proofs.«179703_j40638980555308_2_alg».proof.Proof.LibColumn
import Idealize.ShloMosaic.Lib.Pipeline.Value
import Idealize.ShloMosaic.Lib.ValueIdx
import Idealize.ShloMosaic.PureOps.Ideal.Laws

noncomputable section

namespace Cert.KernelIdeal.Lsm

open Cert.KernelIdeal Cert.KernelIdeal.Gen Cert.LsmSpec
open Idealize.ShloMosaic Idealize.ShloMosaic.TcCoe Idealize.ShloMosaic.ValueIdx Idealize.SL.Sem
open Idealize.ShloMosaic.Pipeline (Dat)

/-! ## The body's arithmetic at an entry -/

/-- Re-inserting lane k into the row index p of a block gives the entry (p, k). -/
theorem lift_eq (h : Shape.Reduces S2000x4 [(1 : Fin 2)] S2000) (p : Fin 2000) (k : Fin 4) :
    h.lift (ix1 p) k = ix2 p k := by
  funext a; apply Fin.ext
  match a with
  | ⟨0, _⟩ => rfl
  | ⟨1, _⟩ => rfl

/-- The lane maximum of row p of a block is the row's maximum. -/
theorem rowMaxK (x : FVec Ideal S2000x4 .f32) (h : Shape.Reduces S2000x4 [(1 : Fin 2)] S2000) (hφ : FKind.Formats .f32)
    (hacc : (0xFF800000#32 : BitVec 32) = FKind.maximumf.neutral .f32 hφ) (p : Fin 2000) :
    multiReduction .maximumf [1] S2000 x 0xFF800000#32 h hφ hacc (ix1 p) = rowMax (n := 2000) x p := by
  refine (Ideal.multiReduction_maximumf_single x _ h hφ hacc (ix1 p)).trans ?_
  unfold rowMax
  refine congrArg (fun f => Finset.fold max (Ideal.ofBits .f32 0xFF800000#32) f Finset.univ) ?_
  funext k
  exact congrArg x (lift_eq h p k)

/-- The lane sum of row p of a block is the sum of the row's four entries. -/
theorem rowSumK (x : FVec Ideal S2000x4 .f32) (h : Shape.Reduces S2000x4 [(1 : Fin 2)] S2000) (hφ : FKind.Formats .f32)
    (hacc : (0x00000000#32 : BitVec 32) = FKind.add.neutral .f32 hφ) (p : Fin 2000) :
    multiReduction .add [1] S2000 x 0x00000000#32 h hφ hacc (ix1 p) = ∑ k : Fin 4, x (ix2 p k) := by
  refine (Ideal.multiReduction_add_single x _ h hφ hacc (ix1 p)).trans ?_
  exact Finset.sum_congr rfl fun k _ => congrArg x (lift_eq h p k)

theorem vlog_apply {s : Shape} (a : FVec Ideal s .f32) (i : s.Idx) : log a i = Ideal.log (a i) := rfl

/-- Entry (p, q) of what the body stores is the row-wise log-softmax of the loaded block at (p, q). -/
theorem pay2_apply (x : Vec Ideal S2000x4 .f32) (p : Fin 2000) (q : Fin 4) :
    k2_pay1 x (ix2 p q) = lsm (n := 2000) x (ix2 p q) := by
  unfold k2_pay1
  simp only [shapeCast_self, subf_apply, vlog_apply, Cert.LibColumn.broadcastTo_a1_ab_apply, Cert.LibColumn.shapeCast_a_a1_apply]
  show _ = (x (ix2 p q) - rowMax x p) - Ideal.log (∑ j : Fin 4, Ideal.exp (x (ix2 p j) - rowMax x p))
  refine congrArg₂ (fun u v => x (ix2 p q) - u - Ideal.log v) (rowMaxK x _ _ _ p) ?_
  refine (rowSumK _ _ _ _ p).trans ?_
  refine Finset.sum_congr rfl fun j _ => ?_
  show Ideal.exp (x (ix2 p j) - broadcastTo S2000x4 (shapeCast S2000x1 _ shapeCasts_S2000_S2000x1) broadcasts_S2000x1_S2000x4 (ix2 p j)) = _
  rw [Cert.LibColumn.broadcastTo_a1_ab_apply, Cert.LibColumn.shapeCast_a_a1_apply]
  exact congrArg (fun z => Ideal.exp (x (ix2 p j) - z)) (rowMaxK x _ _ _ p)

/-! ## The launch -/

variable (V : (c : Dev nD) → (b : Ref sig .tc) → Buf (Elt Ideal) ((c : Thread nD τ).loc b))

theorem hz : (![0, 0] : Fin 2 → Nat) = fun _ => 0 := funext fun a => by fin_cases a <;> rfl

/-- Where the two windows' blocks sit at grid point t: both at row block t. -/
theorem idx2 : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- The input block at point t is rows 2000·t … 2000·t + 1999 of the array. -/
theorem iblk2_0_apply (c : Dev nD) (t : Fin cfg2.N) (x : S2000x4.Idx) (k : S100000x4.Idx)
    (hk0 : (k 0).val = t.val * 2000 + (x 0).val) (hk1 : (k 1).val = (x 1).val) :
    (iblk2 V c 0 t : Vec Ideal S2000x4 .f32) x = (V c main_v64 : S100000x4.Idx → Elt Ideal .f32) k := by
  obtain ⟨e0, e1, -, -⟩ := idx2 t
  unfold iblk2
  rw [View.read_apply]
  show V c main_v64 _ = V c main_v64 _
  refine congrArg (V c main_v64) ?_
  funext a
  apply Fin.ext
  match a with
  | ⟨0, _⟩ => show win2_0.index t (0 : Fin 2) * 2000 + 1 * (x 0).val = (k 0).val; rw [e0, hk0]; omega
  | ⟨1, _⟩ => show win2_0.index t (1 : Fin 2) * 4 + 1 * (x 1).val = (k 1).val; rw [e1, hk1]; omega

/-- The block's log-softmax at (p, q) is the whole array's at row 2000·t + p, column q. -/
theorem lsm_block (c : Dev nD) (t : Fin cfg2.N) (p : Fin 2000) (q : Fin 4) (i : S100000x4.Idx)
    (h0 : (i 0).val = t.val * 2000 + p.val) (h1 : (i 1).val = q.val) :
    lsm (n := 2000) (iblk2 V c 0 t) (ix2 p q) = lsm (n := 100000) (V c main_v64) i := by
  obtain ⟨r, q', rfl⟩ : ∃ (r : Fin 100000) (q' : Fin 4), i = ix2 r q' := ⟨i 0, i 1, eq_ix2 i⟩
  obtain rfl : q' = q := Fin.ext h1
  exact lsm_congr _ _ p r q' (fun j => iblk2_0_apply V c t (ix2 p j) (ix2 r j) h0 rfl)

/-- What point t writes back is block t of the whole array's row-wise log-softmax. -/
theorem flushed2 (c : Dev nD) (t : Fin cfg2.N) :
    (dat2 V c).flushed 1 t = ((cfg2.win 1).blk t).view.read (Elt Ideal) (lsm (n := 100000) (V c main_v64)) := by
  show (cfg2.win 1).cut (grid2.coords t) ((dat2 V c).after 1 t) = _
  rw [after2_1]
  unfold out2_1
  rw [View.canon_unit_zero hz]
  simp only [View.ld_unit_zero (S := S2000x4) hz]
  obtain ⟨-, -, e2, e3⟩ := idx2 t
  funext y
  obtain ⟨p, q, rfl⟩ : ∃ (p : Fin 2000) (q : Fin 4), y = ix2 p q := ⟨y 0, y 1, eq_ix2 y⟩
  refine (pay2_apply (iblk2 V c 0 t) p q).trans ?_
  rw [View.read_apply]
  refine lsm_block V c t p q _ ?_ ?_
  · show win2_1.index t (0 : Fin 2) * 2000 + 1 * p.val = t.val * 2000 + p.val
    rw [e2]; omega
  · show win2_1.index t (1 : Fin 2) * 4 + 1 * q.val = q.val
    rw [e3]; omega

/-- An index of the output array is in point t's block iff each coordinate is in the block's range on its axis. -/
theorem mem_blk2 (t : Fin cfg2.N) (i : S100000x4.Idx) :
    i ∈ ((cfg2.win 1).blk t).view.set ↔ ∀ a : Fin 2, win2_1.index t a * S2000x4.size a ≤ (i a).val ∧ (i a).val < win2_1.index t a * S2000x4.size a + S2000x4.size a := by
  show i ∈ ((View.whole main_v65).slice (win2_1.rect t)).set ↔ _
  rw [View.set_slice_whole, Rect.mem_set_unit]
  exact Iff.rfl

/-- Row r of the output lies in the block of point r / 2000: the fifty blocks tile the array. -/
theorem cover2 (i : S100000x4.Idx) :
    ∃ t : Fin cfg2.N, (cfg2.win 1).flush t = true ∧ i ∈ ((cfg2.win 1).blk t).view.set := by
  have hi0 : (i 0).val < 100000 := (i 0).isLt
  have hi1 : (i 1).val < 4 := (i 1).isLt
  have ht : (i 0).val / 2000 < cfg2.N := by show _ < grid2.N; rw [N_2]; omega
  obtain ⟨-, -, e2, e3⟩ := idx2 ⟨(i 0).val / 2000, ht⟩
  have e2' : win2_1.index ⟨(i 0).val / 2000, ht⟩ (0 : Fin 2) = (i 0).val / 2000 := e2
  refine ⟨⟨(i 0).val / 2000, ht⟩, flush2_1 _, ?_⟩
  rw [mem_blk2]
  intro a
  match a with
  | ⟨0, _⟩ =>
    show win2_1.index ⟨(i 0).val / 2000, ht⟩ (0 : Fin 2) * 2000 ≤ (i 0).val ∧ (i 0).val < win2_1.index ⟨(i 0).val / 2000, ht⟩ (0 : Fin 2) * 2000 + 2000
    rw [e2']; omega
  | ⟨1, _⟩ =>
    show win2_1.index ⟨(i 0).val / 2000, ht⟩ (1 : Fin 2) * 4 ≤ (i 1).val ∧ (i 1).val < win2_1.index ⟨(i 0).val / 2000, ht⟩ (1 : Fin 2) * 4 + 4
    rw [e3]; omega

/-- After the launch its output array holds the row-wise log-softmax of its input array as the launch found it. -/
theorem arr2 (c : Dev nD) : (dat2 V c).arrAt 1 cfg2.N = lsm (n := 100000) (V c main_v64) :=
  (dat2 V c).arrAt_eq_of_cover 1 (lsm (n := 100000) (V c main_v64)) (fun t _ => flushed2 V c t) cover2

end Cert.KernelIdeal.Lsm

end
-- ==== Proof.KStagesB.lean ====
/-
  The kernel program from its first launch to its result, read in stages.

  The first launch leaves the product of the features with the first weight matrix; the host then gathers its rows along
  the edges, weights them, sums them per destination node, adds the bias and rectifies — the reference's operations, on a
  product that is the reference's own. The second launch leaves the product with the second weight matrix, the host
  aggregates again, and the third launch leaves the row-wise log-softmax. At every boundary each buffer a later stretch
  reads is found at the reference's named stage applied to the kernel program's arguments, so the result buffer ends at
  the row-wise log-softmax of the reference's last stage before its own log-softmax.
-/
import proofs.«179703_j40638980555308_2_alg».proof.Proof.KStagesA
import proofs.«179703_j40638980555308_2_alg».proof.Proof.KMat
import proofs.«179703_j40638980555308_2_alg».proof.Proof.KLsm
import proofs.«179703_j40638980555308_2_alg».proof.Proof.LsmSpec
import proofs.«179703_j40638980555308_2_alg».proof.Proof.LibTRef

set_option maxHeartbeats 16000000
set_option maxRecDepth 16384

noncomputable section

namespace Cert.KernelIdeal.Stages

open Cert.KernelIdeal Cert.KernelIdeal.Gen
open Cert.ReferenceIdeal.ReadP (val_main_v3 val_main_v6 val_main_v14 val_main_v29 val_main_v30 val_main_v46 val_main_v47 val_main_v48 val_main_v64 val_main_v65)
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first launch -/

theorem W4_v30 : W4 m ρ c (Proc.devRef .tc main_v30) = val_main_v30 (F := Ideal) (m ((c.tc : Thread nD τ).loc main_arg0)) (m ((c.tc : Thread nD τ).loc main_arg2)) := by
  refine (W4_arr m ρ c 2).trans ?_
  refine (Cert.KernelIdeal.Mat.arr0 (V3 m ρ) c).trans ?_
  show Cert.KernelIdeal.Mat.prod0 (W3 m ρ c (Proc.devRef .tc main_arg0)) (W3 m ρ c (Proc.devRef .tc main_arg2)) = _
  rw [W3_arg0 m ρ c, W3_arg2 m ρ c]
  rfl
theorem W4_v3 : W4 m ρ c (Proc.devRef .tc main_v3) = val_main_v3 (F := Ideal) (m ((c.tc : Thread nD τ).loc main_arg1)) :=
  (W4_of_ne m ρ c main_v3 (by decide)).trans (W3_v3 m ρ c)
theorem W4_v6 : W4 m ρ c (Proc.devRef .tc main_v6) = val_main_v6 (F := Ideal) (m ((c.tc : Thread nD τ).loc main_arg1)) :=
  (W4_of_ne m ρ c main_v6 (by decide)).trans (W3_v6 m ρ c)
theorem W4_v29 : W4 m ρ c (Proc.devRef .tc main_v29) = val_main_v29 (F := Ideal) (m ((c.tc : Thread nD τ).loc main_arg1)) :=
  (W4_of_ne m ρ c main_v29 (by decide)).trans (W3_v29 m ρ c)
theorem W4_arg3 : W4 m ρ c (Proc.devRef .tc main_arg3) = m ((c.tc : Thread nD τ).loc main_arg3) :=
  (W4_of_ne m ρ c main_arg3 (by decide)).trans (W3_arg3 m ρ c)
theorem W4_arg4 : W4 m ρ c (Proc.devRef .tc main_arg4) = m ((c.tc : Thread nD τ).loc main_arg4) :=
  (W4_of_ne m ρ c main_arg4 (by decide)).trans (W3_arg4 m ρ c)
theorem W4_arg5 : W4 m ρ c (Proc.devRef .tc main_arg5) = m ((c.tc : Thread nD τ).loc main_arg5) :=
  (W4_of_ne m ρ c main_arg5 (by decide)).trans (W3_arg5 m ρ c)

/-! ## After the first aggregation, its bias and the rectifier -/

theorem W5_v46 : W5 m ρ c (Proc.devRef .tc main_v46) = val_main_v46 (F := Ideal) (m ((c.tc : Thread nD τ).loc main_arg0)) (m ((c.tc : Thread nD τ).loc main_arg1)) (m ((c.tc : Thread nD τ).loc main_arg2)) (m ((c.tc : Thread nD τ).loc main_arg3)) := by
  have h3 := W4_v3 m ρ c
  have h6 := W4_v6 m ρ c
  have h29 := W4_v29 m ρ c
  have h30 := W4_v30 m ρ c
  have a3 := W4_arg3 m ρ c
  dsimp only [W5, hostOps1]
  generalize W4 m ρ c = W at h3 h6 h29 h30 a3 ⊢
  after_results
  rw [h3, h6, h29, h30, a3]
  rfl

/-- The three operations of the rectifier, from any contents: the maximum with the broadcast zero. -/
theorem relu_result (W : Valuation τ sig (Elt Ideal)) :
    after hostOps1_1 W (Proc.devRef .tc main_v47)
      = maximumf (W (Proc.devRef .tc main_v46) : FVec Ideal S100000x16 .f32)
          (broadcastInDim S100000x16 ![] bcast_S_S100000x16 (constant (F := Ideal) S_ .f32 0x00000000#32)) := by
  dsimp only [hostOps1_1]
  after_results
  simp only [Cert.LibTRef.ofBuf_toBuf]
  rfl

theorem W6_v47 : W6 m ρ c (Proc.devRef .tc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) := by
  have h46 := W5_v46 m ρ c
  dsimp only [W6]
  rw [relu_result, h46]
  rfl
theorem W6_v3 : W6 m ρ c (Proc.devRef .tc main_v3) = val_main_v3 (F := Ideal) (m ((c.tc : Thread nD τ).loc main_arg1)) := by
  have h := W4_v3 m ρ c
  dsimp only [W6, W5, hostOps1_1, hostOps1]
  generalize W4 m ρ c = W at h ⊢
  after_results
  exact h
theorem W6_v6 : W6 m ρ c (Proc.devRef .tc main_v6) = val_main_v6 (F := Ideal) (m ((c.tc : Thread nD τ).loc main_arg1)) := by
  have h := W4_v6 m ρ c
  dsimp only [W6, W5, hostOps1_1, hostOps1]
  generalize W4 m ρ c = W at h ⊢
  after_results
  exact h
theorem W6_v29 : W6 m ρ c (Proc.devRef .tc main_v29) = val_main_v29 (F := Ideal) (m ((c.tc : Thread nD τ).loc main_arg1)) := by
  have h := W4_v29 m ρ c
  dsimp only [W6, W5, hostOps1_1, hostOps1]
  generalize W4 m ρ c = W at h ⊢
  after_results
  exact h
theorem W6_arg4 : W6 m ρ c (Proc.devRef .tc main_arg4) = m ((c.tc : Thread nD τ).loc main_arg4) := by
  have h := W4_arg4 m ρ c
  dsimp only [W6, W5, hostOps1_1, hostOps1]
  generalize W4 m ρ c = W at h ⊢
  after_results
  exact h
theorem W6_arg5 : W6 m ρ c (Proc.devRef .tc main_arg5) = m ((c.tc : Thread nD τ).loc main_arg5) := by
  have h := W4_arg5 m ρ c
  dsimp only [W6, W5, hostOps1_1, hostOps1]
  generalize W4 m ρ c = W at h ⊢
  after_results
  exact h

/-! ## After the second launch -/

theorem W7_v48 : W7 m ρ c (Proc.devRef .tc main_v48) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W7_arr m ρ c 2).trans ?_
  refine (Cert.KernelIdeal.Mat.arr1 (V6 m ρ) c).trans ?_
  show Cert.KernelIdeal.Mat.prod1 (W6 m ρ c (Proc.devRef .tc main_v47)) (W6 m ρ c (Proc.devRef .tc main_arg4)) = _
  rw [W6_v47 m ρ c, W6_arg4 m ρ c]
  rfl
theorem W7_v3 : W7 m ρ c (Proc.devRef .tc main_v3) = val_main_v3 (F := Ideal) (m ((c.tc : Thread nD τ).loc main_arg1)) :=
  (W7_of_ne m ρ c main_v3 (by decide)).trans (W6_v3 m ρ c)
theorem W7_v6 : W7 m ρ c (Proc.devRef .tc main_v6) = val_main_v6 (F := Ideal) (m ((c.tc : Thread nD τ).loc main_arg1)) :=
  (W7_of_ne m ρ c main_v6 (by decide)).trans (W6_v6 m ρ c)
theorem W7_v29 : W7 m ρ c (Proc.devRef .tc main_v29) = val_main_v29 (F := Ideal) (m ((c.tc : Thread nD τ).loc main_arg1)) :=
  (W7_of_ne m ρ c main_v29 (by decide)).trans (W6_v29 m ρ c)
theorem W7_arg5 : W7 m ρ c (Proc.devRef .tc main_arg5) = m ((c.tc : Thread nD τ).loc main_arg5) :=
  (W7_of_ne m ρ c main_arg5 (by decide)).trans (W6_arg5 m ρ c)

/-! ## After the second aggregation and its bias -/

theorem W8_v64 : W8 m ρ c (Proc.devRef .tc main_v64) = val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have h3 := W7_v3 m ρ c
  have h6 := W7_v6 m ρ c
  have h29 := W7_v29 m ρ c
  have h48 := W7_v48 m ρ c
  have a5 := W7_arg5 m ρ c
  dsimp only [W8, hostOps2]
  generalize W7 m ρ c = W at h3 h6 h29 h48 a5 ⊢
  after_results
  rw [h3, h6, h29, h48, a5]
  rfl

/-! ## After the third launch: the result -/

/-- The result buffer ends at the row-wise log-softmax of the second aggregation, itself the reference's stage of the
    program's arguments. -/
theorem result : W9 m ρ c (Proc.devRef .tc main_v65) = Cert.LsmSpec.lsm (n := 100000) (val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  refine (W9_arr m ρ c 1).trans ?_
  refine (Cert.KernelIdeal.Lsm.arr2 (V8 m ρ) c).trans ?_
  show Cert.LsmSpec.lsm (n := 100000) (W8 m ρ c (Proc.devRef .tc main_v64)) = _
  rw [W8_v64 m ρ c]

end Cert.KernelIdeal.Stages

end
-- ==== Proof.RefStagesA.lean ====
/-
  The reference program read in stages.

  The reference is one straight line of 98 host operations. Its run ends with every buffer at the fold of the operations
  over the launch contents. The fold is read here a stretch at a time — the edge lists and the edge weights (the first
  forty operations), the first product, the first aggregation with its bias and rectifier, the second product, the second
  aggregation with its bias, and the closing log-softmax — each stretch's result being the named stage of the program's
  operation-by-operation reading, so that no stretch's term is ever opened again by a later one.
-/
import proofs.«179703_j40638980555308_2_alg».proof.Proof.RefReadP
import Idealize.ShloMosaic.Lib.StableHlo.Run

set_option maxHeartbeats 16000000
set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons a l ih => exact ih _

theorem after_take_add {τ : Topo} {sig : RefSig} {Val : EltTy → Type} (l : List (HloOp τ sig Val)) (k j : Nat) (V : Valuation τ sig Val) :
    after (l.take (k + j)) V = after ((l.drop k).take j) (after (l.take k) V) := by
  rw [← after_append, ← List.take_add]

variable (m : (ℓ : Loc nD τ sig) → Buf (Elt F) ℓ) (c : Dev nD)

local macro "slice" : tactic =>
  `(tactic| simp only [ops, List.take_succ_cons, List.take_zero, List.drop_succ_cons, List.drop_zero])

/-! ## The arguments are never written -/

theorem no_write_arg0 : ∀ op ∈ (ops : List (HloOp τ sig (Elt F))), Proc.devRef .tc main_arg0 ∉ op.writes :=
  List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide))
theorem keep_arg0 (k : Nat) : after (ops.take k) (launchContents m c) (Proc.devRef .tc main_arg0) = m ((c.tc : Thread nD τ).loc main_arg0) :=
  after_of_forall_not_mem _ _ fun op h => no_write_arg0 op (List.mem_of_mem_take h)
theorem full_arg0 : after ops (launchContents m c) (Proc.devRef .tc main_arg0) = m ((c.tc : Thread nD τ).loc main_arg0) :=
  after_of_forall_not_mem _ _ no_write_arg0

theorem no_write_arg1 : ∀ op ∈ (ops : List (HloOp τ sig (Elt F))), Proc.devRef .tc main_arg1 ∉ op.writes :=
  List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide))
theorem keep_arg1 (k : Nat) : after (ops.take k) (launchContents m c) (Proc.devRef .tc main_arg1) = m ((c.tc : Thread nD τ).loc main_arg1) :=
  after_of_forall_not_mem _ _ fun op h => no_write_arg1 op (List.mem_of_mem_take h)
theorem full_arg1 : after ops (launchContents m c) (Proc.devRef .tc main_arg1) = m ((c.tc : Thread nD τ).loc main_arg1) :=
  after_of_forall_not_mem _ _ no_write_arg1

theorem no_write_arg2 : ∀ op ∈ (ops : List (HloOp τ sig (Elt F))), Proc.devRef .tc main_arg2 ∉ op.writes :=
  List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide))
theorem keep_arg2 (k : Nat) : after (ops.take k) (launchContents m c) (Proc.devRef .tc main_arg2) = m ((c.tc : Thread nD τ).loc main_arg2) :=
  after_of_forall_not_mem _ _ fun op h => no_write_arg2 op (List.mem_of_mem_take h)
theorem full_arg2 : after ops (launchContents m c) (Proc.devRef .tc main_arg2) = m ((c.tc : Thread nD τ).loc main_arg2) :=
  after_of_forall_not_mem _ _ no_write_arg2

theorem no_write_arg3 : ∀ op ∈ (ops : List (HloOp τ sig (Elt F))), Proc.devRef .tc main_arg3 ∉ op.writes :=
  List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide))
theorem keep_arg3 (k : Nat) : after (ops.take k) (launchContents m c) (Proc.devRef .tc main_arg3) = m ((c.tc : Thread nD τ).loc main_arg3) :=
  after_of_forall_not_mem _ _ fun op h => no_write_arg3 op (List.mem_of_mem_take h)
theorem full_arg3 : after ops (launchContents m c) (Proc.devRef .tc main_arg3) = m ((c.tc : Thread nD τ).loc main_arg3) :=
  after_of_forall_not_mem _ _ no_write_arg3

theorem no_write_arg4 : ∀ op ∈ (ops : List (HloOp τ sig (Elt F))), Proc.devRef .tc main_arg4 ∉ op.writes :=
  List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide))
theorem keep_arg4 (k : Nat) : after (ops.take k) (launchContents m c) (Proc.devRef .tc main_arg4) = m ((c.tc : Thread nD τ).loc main_arg4) :=
  after_of_forall_not_mem _ _ fun op h => no_write_arg4 op (List.mem_of_mem_take h)
theorem full_arg4 : after ops (launchContents m c) (Proc.devRef .tc main_arg4) = m ((c.tc : Thread nD τ).loc main_arg4) :=
  after_of_forall_not_mem _ _ no_write_arg4

theorem no_write_arg5 : ∀ op ∈ (ops : List (HloOp τ sig (Elt F))), Proc.devRef .tc main_arg5 ∉ op.writes :=
  List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide))
theorem keep_arg5 (k : Nat) : after (ops.take k) (launchContents m c) (Proc.devRef .tc main_arg5) = m ((c.tc : Thread nD τ).loc main_arg5) :=
  after_of_forall_not_mem _ _ fun op h => no_write_arg5 op (List.mem_of_mem_take h)
theorem full_arg5 : after ops (launchContents m c) (Proc.devRef .tc main_arg5) = m ((c.tc : Thread nD τ).loc main_arg5) :=
  after_of_forall_not_mem _ _ no_write_arg5

/-! ## The edge lists and the normalised inverse root degrees: the first twenty-one operations -/

theorem T21_v3 : after (ops.take 21) (launchContents m c) (Proc.devRef .tc main_v3) = val_main_v3 (F := F) (m ((c.tc : Thread nD τ).loc main_arg1)) := by
  slice
  after_results
  rfl
theorem T21_v6 : after (ops.take 21) (launchContents m c) (Proc.devRef .tc main_v6) = val_main_v6 (F := F) (m ((c.tc : Thread nD τ).loc main_arg1)) := by
  slice
  after_results
  rfl
theorem T21_v14 : after (ops.take 21) (launchContents m c) (Proc.devRef .tc main_v14) = val_main_v14 (F := F) (m ((c.tc : Thread nD τ).loc main_arg1)) := by
  slice
  after_results
  rfl

/-! ## The edge weights: operations twenty-one to forty -/

theorem T40_v3 : after (ops.take 40) (launchContents m c) (Proc.devRef .tc main_v3) = val_main_v3 (F := F) (m ((c.tc : Thread nD τ).loc main_arg1)) := by
  have h := T21_v3 m c
  rw [show (40 : Nat) = 21 + 19 from rfl, after_take_add]
  generalize after (ops.take 21) (launchContents m c) = W at h ⊢
  slice
  after_results
  exact h
theorem T40_v6 : after (ops.take 40) (launchContents m c) (Proc.devRef .tc main_v6) = val_main_v6 (F := F) (m ((c.tc : Thread nD τ).loc main_arg1)) := by
  have h := T21_v6 m c
  rw [show (40 : Nat) = 21 + 19 from rfl, after_take_add]
  generalize after (ops.take 21) (launchContents m c) = W at h ⊢
  slice
  after_results
  exact h

theorem T40_v29 : after (ops.take 40) (launchContents m c) (Proc.devRef .tc main_v29) = val_main_v29 (F := F) (m ((c.tc : Thread nD τ).loc main_arg1)) := by
  have h3 := T21_v3 m c
  have h6 := T21_v6 m c
  have h14 := T21_v14 m c
  rw [show (40 : Nat) = 21 + 19 from rfl, after_take_add]
  generalize after (ops.take 21) (launchContents m c) = W at h3 h6 h14 ⊢
  slice
  after_results
  rw [h3, h6, h14]
  rfl

/-! ## The first product -/

theorem T41_v30 : after (ops.take 41) (launchContents m c) (Proc.devRef .tc main_v30) = val_main_v30 (F := F) (m ((c.tc : Thread nD τ).loc main_arg0)) (m ((c.tc : Thread nD τ).loc main_arg2)) := by
  have a0 := keep_arg0 m c 40
  have a2 := keep_arg2 m c 40
  rw [show (41 : Nat) = 40 + 1 from rfl, after_take_add]
  generalize after (ops.take 40) (launchContents m c) = W at a0 a2 ⊢
  slice
  after_results
  rw [a0, a2]
  rfl
theorem T41_v3 : after (ops.take 41) (launchContents m c) (Proc.devRef .tc main_v3) = val_main_v3 (F := F) (m ((c.tc : Thread nD τ).loc main_arg1)) := by
  have h := T40_v3 m c
  rw [show (41 : Nat) = 40 + 1 from rfl, after_take_add]
  generalize after (ops.take 40) (launchContents m c) = W at h ⊢
  slice
  after_results
  exact h
theorem T41_v6 : after (ops.take 41) (launchContents m c) (Proc.devRef .tc main_v6) = val_main_v6 (F := F) (m ((c.tc : Thread nD τ).loc main_arg1)) := by
  have h := T40_v6 m c
  rw [show (41 : Nat) = 40 + 1 from rfl, after_take_add]
  generalize after (ops.take 40) (launchContents m c) = W at h ⊢
  slice
  after_results
  exact h
theorem T41_v29 : after (ops.take 41) (launchContents m c) (Proc.devRef .tc main_v29) = val_main_v29 (F := F) (m ((c.tc : Thread nD τ).loc main_arg1)) := by
  have h := T40_v29 m c
  rw [show (41 : Nat) = 40 + 1 from rfl, after_take_add]
  generalize after (ops.take 40) (launchContents m c) = W at h ⊢
  slice
  after_results
  exact h

end Cert.ReferenceIdeal.Stages

end
-- ==== Proof.RefStagesB.lean ====
/-
  The reference program read in stages, continued: the two aggregations, the second product, the closing log-softmax,
  and the run.

  From the first product on, each stretch of the line reads the buffers the stretches before it left — the edge lists, the
  edge weights, the product — and leaves its own result at the named stage of the operation-by-operation reading. The
  run of the whole line then ends with the result buffer at the last stage and the arguments as launched.
-/
import proofs.«179703_j40638980555308_2_alg».proof.Proof.RefStagesA
import proofs.«179703_j40638980555308_2_alg».proof.Proof.LibTRef

set_option maxHeartbeats 16000000
set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

local macro "slice" : tactic =>
  `(tactic| simp only [ops, List.take_succ_cons, List.take_zero, List.drop_succ_cons, List.drop_zero])

/-! ## The first aggregation, its bias and the rectifier -/

theorem T63_v47 : after (ops.take 63) (launchContents m c) (Proc.devRef .tc main_v47) = val_main_v47 (F := F) (m ((c.tc : Thread nD τ).loc main_arg0)) (m ((c.tc : Thread nD τ).loc main_arg1)) (m ((c.tc : Thread nD τ).loc main_arg2)) (m ((c.tc : Thread nD τ).loc main_arg3)) := by
  have h3 := T41_v3 m c
  have h6 := T41_v6 m c
  have h29 := T41_v29 m c
  have h30 := T41_v30 m c
  have a3 := keep_arg3 m c 41
  rw [show (63 : Nat) = 41 + 22 from rfl, after_take_add]
  generalize after (ops.take 41) (launchContents m c) = W at h3 h6 h29 h30 a3 ⊢
  slice
  after_results
  rw [h3, h6, h29, h30, a3]
  rfl

/-! ## The second product -/

theorem T64_v48 : after (ops.take 64) (launchContents m c) (Proc.devRef .tc main_v48) = val_main_v48 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have h47 := T63_v47 m c
  have a4 := keep_arg4 m c 63
  rw [show (64 : Nat) = 63 + 1 from rfl, after_take_add]
  generalize after (ops.take 63) (launchContents m c) = W at h47 a4 ⊢
  slice
  after_results
  rw [h47, a4]
  rfl
theorem T64_v3 : after (ops.take 64) (launchContents m c) (Proc.devRef .tc main_v3) = val_main_v3 (F := F) (m ((c.tc : Thread nD τ).loc main_arg1)) := by
  have h := T41_v3 m c
  rw [show (64 : Nat) = 41 + 23 from rfl, after_take_add]
  generalize after (ops.take 41) (launchContents m c) = W at h ⊢
  slice
  after_results
  exact h
theorem T64_v6 : after (ops.take 64) (launchContents m c) (Proc.devRef .tc main_v6) = val_main_v6 (F := F) (m ((c.tc : Thread nD τ).loc main_arg1)) := by
  have h := T41_v6 m c
  rw [show (64 : Nat) = 41 + 23 from rfl, after_take_add]
  generalize after (ops.take 41) (launchContents m c) = W at h ⊢
  slice
  after_results
  exact h
theorem T64_v29 : after (ops.take 64) (launchContents m c) (Proc.devRef .tc main_v29) = val_main_v29 (F := F) (m ((c.tc : Thread nD τ).loc main_arg1)) := by
  have h := T41_v29 m c
  rw [show (64 : Nat) = 41 + 23 from rfl, after_take_add]
  generalize after (ops.take 41) (launchContents m c) = W at h ⊢
  slice
  after_results
  exact h

/-! ## The second aggregation and its bias -/

theorem T83_v64 : after (ops.take 83) (launchContents m c) (Proc.devRef .tc main_v64) = val_main_v64 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have h3 := T64_v3 m c
  have h6 := T64_v6 m c
  have h29 := T64_v29 m c
  have h48 := T64_v48 m c
  have a5 := keep_arg5 m c 64
  rw [show (83 : Nat) = 64 + 19 from rfl, after_take_add]
  generalize after (ops.take 64) (launchContents m c) = W at h3 h6 h29 h48 a5 ⊢
  slice
  after_results
  rw [h3, h6, h29, h48, a5]
  rfl

/-! ## The closing log-softmax, and the whole line -/

theorem full_v65 : after ops (launchContents m c) (Proc.devRef .tc main_v65) = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have h64 := T83_v64 m c
  rw [← List.take_append_drop 83 (ops (F := F)), after_append]
  generalize after (ops.take 83) (launchContents m c) = W at h64 ⊢
  slice
  after_results
  rw [h64]
  simp only [Cert.LibTRef.ofBuf_toBuf]
  rfl

/-! ## The run -/

/-- Every weakly fair execution of the reference terminates, nothing faulting, with the result buffer at the last stage
    of the arguments and the arguments as launched. -/
theorem run (ρ : Dev nD → PrngReg) :
    θ_run defs (onTc (τ := τ) (main (F := F))) ⟨m, fun _ => 0, ρ⟩ fun r => ∀ c : Dev nD,
      r.2.mem ((c.tc : Thread nD τ).loc main_v65) = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v65).trans (full_v65 m c),
      (h c main_arg0).trans (full_arg0 m c),
      (h c main_arg1).trans (full_arg1 m c),
      (h c main_arg2).trans (full_arg2 m c),
      (h c main_arg3).trans (full_arg3 m c),
      (h c main_arg4).trans (full_arg4 m c),
      (h c main_arg5).trans (full_arg5 m c)⟩)
    (run_seq scopedRefs_eq scopedSems_eq defs main (fun _ => ops) main_eq (fun _ => ops_sub) m ρ)

end Cert.ReferenceIdeal.Stages

end
-- ==== Proof.RefLsm.lean ====
/-
  The reference's closing log-softmax, read at an entry.

  The reference takes each row's maximum by a host reduction from −∞, takes the maximum with −∞ once more, subtracts it
  from the row, exponentiates, sums the row from zero, takes the logarithm and subtracts it. At entry (r, q) this is
  (y (r, q) − max_r) − log (∑ j, exp (y (r, j) − max_r)) for y the array it is applied to: the row-wise log-softmax.
-/
import proofs.«179703_j40638980555308_2_alg».proof.Proof.RefReadP
import proofs.«179703_j40638980555308_2_alg».proof.Proof.LsmSpec
import Idealize.ShloMosaic.Lib.ValueIdx
import Idealize.ShloMosaic.PureOps.Ideal.Laws

noncomputable section

namespace Cert.ReferenceIdeal.Lsm

open Cert.ReferenceIdeal Cert.ReferenceIdeal.Gen Cert.ReferenceIdeal.ReadP Cert.LsmSpec
open Idealize.ShloMosaic Idealize.ShloMosaic.TcCoe Idealize.ShloMosaic.ValueIdx

variable (x0 : (⟨S100000x512, .f32⟩ : BufTy).Contents (Elt Ideal)) (x1 : (⟨S2x3200000, .i32⟩ : BufTy).Contents (Elt Ideal))
  (x2 : (⟨S512x16, .f32⟩ : BufTy).Contents (Elt Ideal)) (x3 : (⟨S16, .f32⟩ : BufTy).Contents (Elt Ideal))
  (x4 : (⟨S16x4, .f32⟩ : BufTy).Contents (Elt Ideal)) (x5 : (⟨S4, .f32⟩ : BufTy).Contents (Elt Ideal))

/-- Re-inserting column k into the row index r gives the entry (r, k). -/
theorem lift_eq (h : Shape.Reduces S100000x4 [(1 : Fin 2)] S100000) (r : Fin 100000) (k : Fin 4) :
    h.lift (ix1 r) k = ix2 r k := by
  funext a; apply Fin.ext
  match a with
  | ⟨0, _⟩ => rfl
  | ⟨1, _⟩ => rfl

/-- The reduction's maximum of row r, taken once more with −∞, is the row's maximum. -/
theorem rmax (r : Fin 100000) :
    val_main_call2_v2 (F := Ideal) x0 x1 x2 x3 x4 x5 (ix1 r) = rowMax (n := 100000) (val_main_v64 (F := Ideal) x0 x1 x2 x3 x4 x5) r := by
  have h1 : val_main_call2_v1 (F := Ideal) (ix1 r) = Ideal.ofBits .f32 0xFF800000#32 :=
    (val_main_call2_v1_apply (F := Ideal) (ix1 r)).trans rfl
  have h0 : val_main_call2_v0 (F := Ideal) x0 x1 x2 x3 x4 x5 (ix1 r) = rowMax (n := 100000) (val_main_v64 (F := Ideal) x0 x1 x2 x3 x4 x5) r := by
    have hR : Shape.Reduces S100000x4 [(1 : Fin 2)] S100000 := by decide
    unfold val_main_call2_v0
    generalize val_main_v64 (F := Ideal) x0 x1 x2 x3 x4 x5 = y
    refine (Host.reduce_eq_fold_single (α := EReal) (FloatOps.maximumf (F := Ideal) (φ := .f32))
      (y : S100000x4.Idx → EReal) _ reducesTo_S100000x4_S100000_d1 hR h_S_ (ix1 r)).trans ?_
    unfold rowMax
    show Finset.fold max (Ideal.ofBits .f32 0xFF800000#32) (fun j : Fin 4 => y (hR.lift (ix1 r) j)) (Finset.univ : Finset (Fin 4))
      = Finset.fold max (Ideal.ofBits .f32 0xFF800000#32) (fun j : Fin 4 => y (ix2 r j)) Finset.univ
    simp only [lift_eq hR r]
  refine (val_main_call2_v2_apply x0 x1 x2 x3 x4 x5 (ix1 r)).trans ?_
  refine (congrArg₂ (fun a b => FloatOps.maximumf (F := Ideal) (φ := .f32) a b) h1 h0).trans ?_
  generalize rowMax (n := 100000) (val_main_v64 (F := Ideal) x0 x1 x2 x3 x4 x5) r = z
  exact max_neg_inf z

/-- The maximum broadcast back across the row. -/
theorem col (r : Fin 100000) (k : Fin 4) :
    val_main_call2_v4 (F := Ideal) x0 x1 x2 x3 x4 x5 (ix2 r k) = rowMax (n := 100000) (val_main_v64 (F := Ideal) x0 x1 x2 x3 x4 x5) r := by
  have e : idx_main_call2_v3 (idx_main_call2_v4 (ix2 r k)) = ix1 r :=
    funext fun a => Fin.ext (by match a with | ⟨0, _⟩ => rfl)
  refine (val_main_call2_v4_apply x0 x1 x2 x3 x4 x5 (ix2 r k)).trans ?_
  refine (val_main_call2_v3_apply x0 x1 x2 x3 x4 x5 _).trans ?_
  exact (congrArg (val_main_call2_v2 (F := Ideal) x0 x1 x2 x3 x4 x5) e).trans (rmax x0 x1 x2 x3 x4 x5 r)

/-- The shifted entry. -/
theorem shifted (r : Fin 100000) (k : Fin 4) :
    val_main_call2_v5 (F := Ideal) x0 x1 x2 x3 x4 x5 (ix2 r k)
      = (val_main_v64 (F := Ideal) x0 x1 x2 x3 x4 x5) (ix2 r k) - rowMax (n := 100000) (val_main_v64 (F := Ideal) x0 x1 x2 x3 x4 x5) r :=
  ((val_main_call2_v5_apply x0 x1 x2 x3 x4 x5 (ix2 r k)).trans (Ideal.subf_def _ _)).trans
    (congrArg (fun z => (val_main_v64 (F := Ideal) x0 x1 x2 x3 x4 x5) (ix2 r k) - z) (col x0 x1 x2 x3 x4 x5 r k))

/-- The row's sum of exponentials. -/
theorem rsum (r : Fin 100000) :
    val_main_call2_v7 (F := Ideal) x0 x1 x2 x3 x4 x5 (ix1 r)
      = ∑ k : Fin 4, Ideal.exp ((val_main_v64 (F := Ideal) x0 x1 x2 x3 x4 x5) (ix2 r k) - rowMax (n := 100000) (val_main_v64 (F := Ideal) x0 x1 x2 x3 x4 x5) r) := by
  have hc : val_main_call2_cst_1 (F := Ideal) (Shape.Idx.first h_S_) = 0 := Ideal.ofBits_zero_f32
  have e : ∀ k : Fin 4, idx_main_call2_v7 (ix1 r) k = ix2 r k := fun k =>
    funext fun a => Fin.ext (by match a with | ⟨0, _⟩ => rfl | ⟨1, _⟩ => rfl)
  have hs : ∀ k : Fin 4, val_main_call2_v6 (F := Ideal) x0 x1 x2 x3 x4 x5 (idx_main_call2_v7 (ix1 r) k)
      = Ideal.exp ((val_main_v64 (F := Ideal) x0 x1 x2 x3 x4 x5) (ix2 r k) - rowMax (n := 100000) (val_main_v64 (F := Ideal) x0 x1 x2 x3 x4 x5) r) := fun k =>
    ((congrArg (val_main_call2_v6 (F := Ideal) x0 x1 x2 x3 x4 x5) (e k)).trans
      ((val_main_call2_v6_apply x0 x1 x2 x3 x4 x5 (ix2 r k)).trans (Ideal.hostUnary_exp_def _))).trans
      (congrArg Ideal.exp (shifted x0 x1 x2 x3 x4 x5 r k))
  refine (val_main_call2_v7_apply x0 x1 x2 x3 x4 x5 (ix1 r)).trans ?_
  exact (congrArg₂ (· + ·) hc (Finset.sum_congr rfl fun k _ => hs k)).trans (zero_add _)

/-- The reference's last stage is the row-wise log-softmax of the stage before it. -/
theorem lsm_ref : val_main_v65 (F := Ideal) x0 x1 x2 x3 x4 x5 = lsm (n := 100000) (val_main_v64 (F := Ideal) x0 x1 x2 x3 x4 x5) := by
  funext i
  obtain ⟨r, q, rfl⟩ : ∃ (r : Fin 100000) (q : Fin 4), i = ix2 r q := ⟨i 0, i 1, eq_ix2 i⟩
  have e : idx_main_call2_v8 (idx_main_call2_v10 (ix2 r q)) = ix1 r :=
    funext fun a => Fin.ext (by match a with | ⟨0, _⟩ => rfl)
  have h10 : val_main_call2_v10 (F := Ideal) x0 x1 x2 x3 x4 x5 (ix2 r q)
      = Ideal.log (∑ k : Fin 4, Ideal.exp ((val_main_v64 (F := Ideal) x0 x1 x2 x3 x4 x5) (ix2 r k) - rowMax (n := 100000) (val_main_v64 (F := Ideal) x0 x1 x2 x3 x4 x5) r)) :=
    (val_main_call2_v10_apply x0 x1 x2 x3 x4 x5 (ix2 r q)).trans
      ((val_main_call2_v9_apply x0 x1 x2 x3 x4 x5 _).trans
        ((Ideal.hostUnary_log_def _).trans
          (congrArg Ideal.log
            ((val_main_call2_v8_apply x0 x1 x2 x3 x4 x5 _).trans
              ((congrArg (val_main_call2_v7 (F := Ideal) x0 x1 x2 x3 x4 x5) e).trans (rsum x0 x1 x2 x3 x4 x5 r))))))
  unfold lsm
  exact (val_main_v65_apply x0 x1 x2 x3 x4 x5 (ix2 r q)).trans
    ((Ideal.subf_def _ _).trans (congrArg₂ (fun a b => a - b) (shifted x0 x1 x2 x3 x4 x5 r q) h10))

end Cert.ReferenceIdeal.Lsm

end
-- ==== Proof.lean ====
/-
  A two-layer graph convolution with a log-softmax head: the kernel program against its reference, on the extended reals.

  Both programs add self loops to the edge list, weigh each edge by the inverse square roots of its endpoints' degrees,
  and twice multiply the node features by a weight matrix, gather the product's rows along the edges, scale them, sum them
  per destination node and add a bias — with a rectifier between the two layers and a row-wise log-softmax at the end. The
  kernel program runs the two matrix products and the log-softmax as tiled launches, 2000 rows to a grid point, rounding the
  products' operands to bf16 first; the reference runs everything as host operations.

  On the extended reals a change of float format is the identity and a block product's entry is the same sum over the
  contracted coordinate as the whole product's, so each launch leaves exactly what the reference's corresponding
  operation computes: the two products are the reference's products, and the tiled log-softmax is the reference's
  (max − subtract − exp − sum − log − subtract, row by row; taking the maximum once more with −∞ changes nothing). The
  host operations between the launches are the reference's own, applied to equal operands. No law of arithmetic is used
  beyond re-indexing a finite sum, so the precondition (finite inputs) is never opened.

  The frames of the two kernel programs are the generated ones; the reference's frame is its run with the result dropped;
  nothing was rewritten by the idealization, so its preservation is trivial.
-/
import proofs.«179703_j40638980555308_2_alg».proof.Defs
import proofs.«179703_j40638980555308_2_alg».proof.Proof.Gen.Kernel
import proofs.«179703_j40638980555308_2_alg».proof.Proof.Gen.Kernel.Skeleton
import proofs.«179703_j40638980555308_2_alg».proof.Proof.Gen.Kernel.Launch
import proofs.«179703_j40638980555308_2_alg».proof.Proof.Gen.Kernel.Points
import proofs.«179703_j40638980555308_2_alg».proof.Proof.Gen.Kernel.Frame
import proofs.«179703_j40638980555308_2_alg».proof.Proof.Gen.KernelIdeal
import proofs.«179703_j40638980555308_2_alg».proof.Proof.Gen.KernelIdeal.Skeleton
import proofs.«179703_j40638980555308_2_alg».proof.Proof.Gen.KernelIdeal.Launch
import proofs.«179703_j40638980555308_2_alg».proof.Proof.Gen.KernelIdeal.Points
import proofs.«179703_j40638980555308_2_alg».proof.Proof.Gen.KernelIdeal.Frame
import proofs.«179703_j40638980555308_2_alg».proof.Proof.Gen.ReferenceIdeal
import proofs.«179703_j40638980555308_2_alg».proof.Proof.Gen.Pre_finite_inputs
import proofs.«179703_j40638980555308_2_alg».proof.Proof.KRun
import proofs.«179703_j40638980555308_2_alg».proof.Proof.KStagesB
import proofs.«179703_j40638980555308_2_alg».proof.Proof.RefStagesB
import proofs.«179703_j40638980555308_2_alg».proof.Proof.RefLsm
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Stages.run (F := Ideal) m ρ)

/-- The idealization rewrote nothing. -/
theorem preserves : Cert.preserves_Kernel_KernelIdeal := trivial

/-- Both programs end with the result at the row-wise log-softmax of the second aggregation of the kernel program's
    arguments: the kernel program by its staged run, the reference by its own, read at arguments that agree. -/
theorem algebraic : Cert.algebraic_KernelIdeal_ReferenceIdeal := by
  intro m ρ m' ρ' _ hagree
  refine ⟨fun c => Cert.LsmSpec.lsm (n := 100000)
    (Cert.ReferenceIdeal.ReadP.val_main_v64 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))), ?_, ?_⟩
  · exact (θ_run Cert.KernelIdeal.defs _ _).mono
      (fun r h c => ⟨(h c).1.trans (Cert.KernelIdeal.Stages.result m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.Stages.run (F := Ideal) m' ρ')
    obtain ⟨e0, e1, e2, e3, e4, e5⟩ := hagree c
    rw [Cert.ReferenceIdeal.Lsm.lsm_ref, e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
